-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg5 : FVec F S96x96 .f32) (main_arg6 : FVec F S96x96 .f32) (main_arg7 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg5
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg6
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg7
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x96 .f32) (main_arg3 : FVec F S96x96 .f32) (main_arg4 : FVec F S96 .f32) (main_arg5 : FVec F S96x96 .f32) (main_arg6 : FVec F S96x96 .f32) (main_arg7 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg2
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg3
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg4
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96 : Shape := ⟨2, ![1, 96]⟩
abbrev S5000x96 : Shape := ⟨2, ![5000, 96]⟩
abbrev S5000x1 : Shape := ⟨2, ![5000, 1]⟩

abbrev nBuf : Space → Nat
  | .hbm => 55
  | .vmem => 22
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x96, .f32⟩
  | .hbm, ⟨34, _⟩ => ⟨S_, .f32⟩
  | .hbm, ⟨35, _⟩ => ⟨S50000x96, .f32⟩
  | .hbm, ⟨36, _⟩ => ⟨S800000x1, .i32⟩
  | .hbm, ⟨37, _⟩ => ⟨S50000x96, .f32⟩
  | .hbm, ⟨38, _⟩ => ⟨S1x96, .f32⟩
  | .hbm, ⟨39, _⟩ => ⟨S50000x96, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x96, .f32⟩
  | .hbm, ⟨49, _⟩ => ⟨S_, .f32⟩
  | .hbm, ⟨50, _⟩ => ⟨S50000x96, .f32⟩
  | .hbm, ⟨51, _⟩ => ⟨S800000x1, .i32⟩
  | .hbm, ⟨52, _⟩ => ⟨S50000x96, .f32⟩
  | .hbm, ⟨53, _⟩ => ⟨S1x96, .f32⟩
  | .hbm, ⟨54, _⟩ => ⟨S50000x96, .f32⟩
  | .local _ .vmem, ⟨0, _⟩ => ⟨S5000x96, .f32⟩
  | .local _ .vmem, ⟨1, _⟩ => ⟨S5000x96, .f32⟩
  | .local _ .vmem, ⟨2, _⟩ => ⟨S5000x1, .f32⟩
  | .local _ .vmem, ⟨3, _⟩ => ⟨S5000x1, .f32⟩
  | .local _ .vmem, ⟨4, _⟩ => ⟨S5000x96, .f32⟩
  | .local _ .vmem, ⟨5, _⟩ => ⟨S5000x96, .f32⟩
  | .local _ .vmem, ⟨6, _⟩ => ⟨S96x96, .f32⟩
  | .local _ .vmem, ⟨7, _⟩ => ⟨S96x96, .f32⟩
  | .local _ .vmem, ⟨8, _⟩ => ⟨S1x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S5000x1, .f32⟩
  | .local _ .vmem, ⟨14, _⟩ => ⟨S5000x1, .f32⟩
  | .local _ .vmem, ⟨15, _⟩ => ⟨S5000x96, .f32⟩
  | .local _ .vmem, ⟨16, _⟩ => ⟨S5000x96, .f32⟩
  | .local _ .vmem, ⟨17, _⟩ => ⟨S96x96, .f32⟩
  | .local _ .vmem, ⟨18, _⟩ => ⟨S96x96, .f32⟩
  | .local _ .vmem, ⟨19, _⟩ => ⟨S1x96, .f32⟩
  | .local _ .vmem, ⟨20, _⟩ => ⟨S5000x96, .f32⟩
  | .local _ .vmem, ⟨21, _⟩ => ⟨S5000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_7 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x96 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x96 : S_.BroadcastsInDim S50000x96 (![] : Fin 0 → Fin S50000x96.rank)
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x96 : S5000x1.Broadcasts S5000x96
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x96.size a ≤ S50000x96.size a
  hwx0_6 : ∀ i : grid0.Coords, EltTy.bits .f32 = 32 ∨ (Rect.block (s := S50000x96) S5000x96.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x96.size a ≤ S1x96.size a
  hwx1_5 : ∀ i : grid1.Coords, EltTy.bits .f32 = 32 ∨ (Rect.block (s := S1x96) S1x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v22) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x96.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x96.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x96 : Shape := ⟨2, ![96, 96]⟩
abbrev S96 : Shape := ⟨1, ![96]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩

abbrev nBuf : Space → Nat
  | .hbm => 84
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96x96, .f32⟩
  | .hbm, ⟨7, _⟩ => ⟨S96, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x96, .f32⟩
  | .hbm, ⟨38, _⟩ => ⟨S50000x96, .f32⟩
  | .hbm, ⟨39, _⟩ => ⟨S50000x96, .f32⟩
  | .hbm, ⟨40, _⟩ => ⟨S1x96, .f32⟩
  | .hbm, ⟨41, _⟩ => ⟨S50000x96, .f32⟩
  | .hbm, ⟨42, _⟩ => ⟨S50000x96, .f32⟩
  | .hbm, ⟨43, _⟩ => ⟨S_, .f32⟩
  | .hbm, ⟨44, _⟩ => ⟨S50000x96, .f32⟩
  | .hbm, ⟨45, _⟩ => ⟨S50000x96, .f32⟩
  | .hbm, ⟨46, _⟩ => ⟨S1x800000, .i32⟩
  | .hbm, ⟨47, _⟩ => ⟨S800000, .i32⟩
  | .hbm, ⟨48, _⟩ => ⟨S1x800000, .i32⟩
  | .hbm, ⟨49, _⟩ => ⟨S800000, .i32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x96, .f32⟩
  | .hbm, ⟨59, _⟩ => ⟨S_, .f32⟩
  | .hbm, ⟨60, _⟩ => ⟨S50000x96, .f32⟩
  | .hbm, ⟨61, _⟩ => ⟨S800000x1, .i32⟩
  | .hbm, ⟨62, _⟩ => ⟨S50000x96, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x96, .f32⟩
  | .hbm, ⟨74, _⟩ => ⟨S50000x96, .f32⟩
  | .hbm, ⟨75, _⟩ => ⟨S50000x96, .f32⟩
  | .hbm, ⟨76, _⟩ => ⟨S50000x96, .f32⟩
  | .hbm, ⟨77, _⟩ => ⟨S50000x96, .f32⟩
  | .hbm, ⟨78, _⟩ => ⟨S1x96, .f32⟩
  | .hbm, ⟨79, _⟩ => ⟨S50000x96, .f32⟩
  | .hbm, ⟨80, _⟩ => ⟨S50000x96, .f32⟩
  | .hbm, ⟨81, _⟩ => ⟨S_, .f32⟩
  | .hbm, ⟨82, _⟩ => ⟨S50000x96, .f32⟩
  | .hbm, ⟨83, _⟩ => ⟨S50000x96, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_cst_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf

class Facts : Prop extends Facts₀ where

variable [Facts]
-- ==== Proof.NamedRun.lean ====
/-
  The program's run with its result array NAMED.

  @main is four segments: host operations, the first layer's region, host operations, the second layer's region. The
  generated frame proves that every weakly fair execution terminates without a fault and reads, of the final state, only
  that the arguments are unchanged. The same launch over the same segments says of every unscoped buffer that it ends at
  the last boundary's contents `W4`; read at the result's buffer as well, that is the statement below: the result array
  ends at `W4 m ρ c main_v36`, the contents the second region's write-backs leave, and the arguments are unchanged.
-/
import proofs.«162244_j89412629168562_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the eight argument arrays as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Named

end
-- ==== Proof.LibColumns.lean ====
/-
  Two-dimensional layout operations and row sums read at an index `(r, k)`, for matrices of `n` rows.
  Each lemma says which single entry of the operand an entry of the result is: a vector turned into a one-column matrix and
  back, a one-column matrix repeated along its rows, a scalar repeated everywhere, five one-column matrices put side by
  side, a ten-column and a five-column matrix put side by side, and the sum of a row's entries (a lane reduction, and the
  host's reduce, which adds the initial value). Nothing here depends on a program.
-/
import Idealize.ShloMosaic.Lib.Pipeline.Value
import Idealize.ShloMosaic.Lib.ValueIdx
import Idealize.ShloMosaic.PureOps.Ideal.Laws

noncomputable section

open scoped BigOperators

namespace Cert.LibColumns

open Idealize.ShloMosaic Idealize.ShloMosaic.ValueIdx

variable {α : Type}

/-- A vector of length `n` reshaped to an `n × 1` matrix: entry `(r, 0)` is entry `r`. -/
theorem shapeCast_vec_col {n : Nat} (v : (⟨1, ![n]⟩ : Shape).Idx → α)
    (h : (⟨1, ![n]⟩ : Shape).ShapeCasts ⟨2, ![n, 1]⟩) (r : Fin n) :
    shapeCast ⟨2, ![n, 1]⟩ v h (ix2 r 0) = v (ix1 r) :=
  shapeCast_apply v h (ix2 r 0) (ix1 r) (by
    rw [Shape.rowMajor_val_one, Shape.rowMajor_val_two]
    show r.val = r.val * 1 + 0
    omega)

/-- An `n × 1` matrix reshaped to a vector of length `n`: entry `r` is entry `(r, 0)`. -/
theorem shapeCast_col_vec {n : Nat} (v : (⟨2, ![n, 1]⟩ : Shape).Idx → α)
    (h : (⟨2, ![n, 1]⟩ : Shape).ShapeCasts ⟨1, ![n]⟩) (r : Fin n) :
    shapeCast ⟨1, ![n]⟩ v h (ix1 r) = v (ix2 r 0) :=
  shapeCast_apply v h (ix1 r) (ix2 r 0) (by
    rw [Shape.rowMajor_val_one, Shape.rowMajor_val_two]
    show r.val * 1 + 0 = r.val
    omega)

/-- An `n × 1` matrix repeated to `n × m` (a vector broadcast): entry `(r, j)` is entry `(r, 0)`. -/
theorem broadcastTo_col {n m : Nat} (v : (⟨2, ![n, 1]⟩ : Shape).Idx → α)
    (h : (⟨2, ![n, 1]⟩ : Shape).Broadcasts ⟨2, ![n, m]⟩) (r : Fin n) (j : Fin m) :
    broadcastTo ⟨2, ![n, m]⟩ v h (ix2 r j) = v (ix2 r 0) :=
  broadcastTo_apply v h (ix2 r j) (ix2 r 0) (fun a => by
    match a with
    | ⟨0, _⟩ =>
      show r.val = if n = 1 then 0 else r.val
      have := r.isLt
      split <;> omega
    | ⟨1, _⟩ => exact (if_pos rfl).symm)

/-- A vector of length `n` placed as the column of an `n × 1` matrix by a broadcast along axis 0. -/
theorem broadcastInDim_vec_col {n : Nat} (dims : Fin 1 → Fin 2) (hd : dims 0 = 0)
    (h : (⟨1, ![n]⟩ : Shape).BroadcastsInDim ⟨2, ![n, 1]⟩ dims) (v : (⟨1, ![n]⟩ : Shape).Idx → α) (r : Fin n) :
    broadcastInDim ⟨2, ![n, 1]⟩ dims h v (ix2 r 0) = v (ix1 r) :=
  broadcastInDim_apply dims h v (ix2 r 0) (ix1 r) (fun a => by
    match a with
    | ⟨0, _⟩ =>
      show r.val = if n = 1 then 0 else (ix2 r (0 : Fin 1) (dims 0)).val
      rw [hd]
      show r.val = if n = 1 then 0 else r.val
      have := r.isLt
      split <;> omega)

/-- An `n × 1` matrix repeated to `n × m` by a broadcast along both axes: entry `(r, j)` is entry `(r, 0)`. -/
theorem broadcastInDim_col_mat {n m : Nat} (dims : Fin 2 → Fin 2) (hd0 : dims 0 = 0) (hd1 : dims 1 = 1)
    (h : (⟨2, ![n, 1]⟩ : Shape).BroadcastsInDim ⟨2, ![n, m]⟩ dims) (v : (⟨2, ![n, 1]⟩ : Shape).Idx → α)
    (r : Fin n) (j : Fin m) :
    broadcastInDim ⟨2, ![n, m]⟩ dims h v (ix2 r j) = v (ix2 r 0) :=
  broadcastInDim_apply dims h v (ix2 r j) (ix2 r 0) (fun a => by
    match a with
    | ⟨0, _⟩ =>
      show r.val = if n = 1 then 0 else (ix2 r j (dims 0)).val
      rw [hd0]
      show r.val = if n = 1 then 0 else r.val
      have := r.isLt
      split <;> omega
    | ⟨1, _⟩ => exact (if_pos rfl).symm)

/-- A scalar repeated over any shape: every entry is the scalar. -/
theorem broadcastInDim_scalar {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

/-- Five `n × 1` matrices side by side, read at `(r, k)`: the `k`-th of them at `(r, 0)`. -/
theorem concat5_apply {n : Nat} (p0 p1 p2 p3 p4 : (⟨2, ![n, 1]⟩ : Shape).Idx → α)
    (h : Shape.Concatenates [(⟨2, ![n, 1]⟩ : Shape), ⟨2, ![n, 1]⟩, ⟨2, ![n, 1]⟩, ⟨2, ![n, 1]⟩, ⟨2, ![n, 1]⟩] ⟨2, ![n, 5]⟩ 1)
    (r : Fin n) (k : Fin 5) :
    concatenate ⟨2, ![n, 5]⟩ 1 [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r k)
      = (match k with | ⟨0, _⟩ => p0 | ⟨1, _⟩ => p1 | ⟨2, _⟩ => p2 | ⟨3, _⟩ => p3 | ⟨4, _⟩ => p4) (ix2 r 0) := by
  have hi : ∀ (k : Fin 5) (b : Fin 2), b.cast rfl ≠ (1 : Fin 2) → ((ix2 r (0 : Fin 1)) b).val = ((ix2 r k) (b.cast rfl)).val := by
    intro k b hb
    match b with
    | ⟨0, _⟩ => rfl
    | ⟨1, _⟩ => exact absurd rfl hb
  match k with
  | ⟨0, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨0, hk⟩)
      0 (by simp) ⟨2, ![n, 1]⟩ p0 rfl rfl 0 rfl (ix2 r 0) (hi _) rfl
  | ⟨1, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨1, hk⟩)
      1 (by simp) ⟨2, ![n, 1]⟩ p1 rfl rfl 1 rfl (ix2 r 0) (hi _) rfl
  | ⟨2, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨2, hk⟩)
      2 (by simp) ⟨2, ![n, 1]⟩ p2 rfl rfl 2 rfl (ix2 r 0) (hi _) rfl
  | ⟨3, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨3, hk⟩)
      3 (by simp) ⟨2, ![n, 1]⟩ p3 rfl rfl 3 rfl (ix2 r 0) (hi _) rfl
  | ⟨4, hk⟩ =>
    exact concatenate_apply_piece (t := ⟨2, ![n, 5]⟩) 1
      [⟨⟨2, ![n, 1]⟩, p0⟩, ⟨⟨2, ![n, 1]⟩, p1⟩, ⟨⟨2, ![n, 1]⟩, p2⟩, ⟨⟨2, ![n, 1]⟩, p3⟩, ⟨⟨2, ![n, 1]⟩, p4⟩] h (ix2 r ⟨4, hk⟩)
      4 (by simp) ⟨2, ![n, 1]⟩ p4 rfl rfl 4 rfl (ix2 r 0) (hi _) rfl

/-- An `n × 10` and an `n × 5` matrix side by side, read in the first ten columns. -/
theorem concat_10_5_left {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 10)
    (hc : c'.val = c.val) :
    concatenate ⟨2, ![n, 15]⟩ 1 [⟨⟨2, ![n, 10]⟩, a⟩, ⟨⟨2, ![n, 5]⟩, b⟩] h (ix2 r c) = a (ix2 r c') :=
  concatenate_pair_apply_left 1 a b h (ix2 r c) rfl (ix2 r c') (fun d => by
    match d with
    | ⟨0, _⟩ => rfl
    | ⟨1, _⟩ => exact hc)

/-- … and in the last five. -/
theorem concat_10_5_right {n : Nat} (a : (⟨2, ![n, 10]⟩ : Shape).Idx → α) (b : (⟨2, ![n, 5]⟩ : Shape).Idx → α)
    (h : Shape.Concatenates [(⟨2, ![n, 10]⟩ : Shape), ⟨2, ![n, 5]⟩] ⟨2, ![n, 15]⟩ 1) (r : Fin n) (c : Fin 15) (c' : Fin 5)
    (hc : c'.val + 10 = c.val) :
    concatenate ⟨2, ![n, 15]⟩ 1 [⟨⟨2, ![n, 10]⟩, a⟩, ⟨⟨2, ![n, 5]⟩, b⟩] h (ix2 r c) = b (ix2 r c') :=
  concatenate_pair_apply_right 1 a b h (ix2 r c) rfl rfl (ix2 r c') (fun d hd => by
    match d with
    | ⟨0, _⟩ => rfl
    | ⟨1, _⟩ => exact absurd rfl hd) hc

/-- The index over row `r` with `k` inserted on the summed axis is `(r, k)`. -/
theorem lift_rows {n m : Nat} (h : (⟨2, ![n, m]⟩ : Shape).Reduces [1] ⟨1, ![n]⟩) (r : Fin n) (k : Fin m) :
    h.lift (ix1 r) k = ix2 r k := by
  funext c
  apply Fin.ext
  match c with
  | ⟨0, _⟩ => rfl
  | ⟨1, _⟩ => rfl

/-- A lane reduction by addition of an `n × m` matrix along its rows, on the extended reals: the sum of the row. -/
theorem multiReduction_rows {n m : Nat} (src : FVec Ideal ⟨2, ![n, m]⟩ .f32)
    (h : (⟨2, ![n, m]⟩ : Shape).Reduces [1] ⟨1, ![n]⟩) (hφ : FKind.Formats .f32)
    (hacc : (0x00000000#32 : BitVec 32) = FKind.add.neutral .f32 hφ) (r : Fin n) :
    multiReduction .add [1] ⟨1, ![n]⟩ src 0x00000000#32 h hφ hacc (ix1 r) = ∑ k : Fin m, src (ix2 r k) :=
  (Ideal.multiReduction_add_single src 0x00000000#32 h hφ hacc (ix1 r)).trans
    (Finset.sum_congr rfl fun k _ => congrArg src (lift_rows h r k))

/-- The host's sum of an `n × m` matrix along its rows, on the extended reals: the initial value plus the sum of the row. -/
theorem hostReduceAdd_rows {n m : Nat} (x : FVec Ideal ⟨2, ![n, m]⟩ .f32) (init : (⟨0, ![]⟩ : Shape).Idx → EReal)
    (h' : (⟨2, ![n, m]⟩ : Shape).ReducesTo [1] ⟨1, ![n]⟩) (hu : 0 < (⟨0, ![]⟩ : Shape).numel)
    (h : (⟨2, ![n, m]⟩ : Shape).Reduces [1] ⟨1, ![n]⟩) (r : Fin n) :
    Host.reduceAdd (F := Ideal) x init h' hu (ix1 r) = init ix0 + ∑ k : Fin m, x (ix2 r k) := by
  have e0 : Shape.Idx.first hu = ix0 := funext fun a => a.elim0
  show Ideal.hostReduceAdd h' x (init (Shape.Idx.first hu)) (ix1 r) = _
  rw [e0]
  exact (Ideal.hostReduceAdd_single h' h x (init ix0) (ix1 r)).trans
    (congrArg (init ix0 + ·) (Finset.sum_congr rfl fun k _ => congrArg x (lift_rows h r k)))

end Cert.LibColumns

end
-- ==== Proof.MeanLaw.lean ====
/-
  The one algebraic law of this certificate, on the extended reals.

  A mean over neighbours divides a sum `a` by a count clamped from below, `d = max s 1`. One program forms the
  reciprocal `1 / d` first and multiplies, the other divides `a` by `d` directly. Division by a non-zero extended
  real `d` is the product with `d⁻¹`, so `1 / d = 1 · d⁻¹ = d⁻¹` and `a · (1 / d) = a · d⁻¹ = a / d`. All that is
  needed of `d` is that it is not zero, and `1 ≤ max s 1` gives that whatever `s` is — finite or not.
  Nothing here depends on a program.
-/
import Idealize.ShloMosaic.PureOps.Ideal

noncomputable section

namespace Cert.MeanLaw

open Idealize.ShloMosaic

/-- The word `0x3F800000` is the number one. -/
theorem ofBits_one : Ideal.ofBits .f32 0x3F800000#32 = 1 := by
  simp [Ideal.ofBits, Ideal.ieee, -EReal.coe_mul]; norm_num

/-- A count clamped from below by one is not zero. -/
theorem clamp_ne_zero (s : EReal) : max s 1 ≠ 0 := by
  have h1 : (1 : EReal) ≤ max s 1 := le_max_right s 1
  intro h0
  rw [h0] at h1
  exact absurd h1 (by norm_num)

/-- Multiplying by the reciprocal of a non-zero divisor is dividing by it. -/
theorem mul_recip (a d : EReal) (hd : d ≠ 0) : a * Ideal.div 1 d = Ideal.div a d := by
  unfold Ideal.div
  rw [if_neg hd, if_neg hd, one_mul]

/-- The law as the two programs spell it: the literal one, a clamp by the literal one. -/
theorem mul_recip_clamp (a s : EReal) :
    a * Ideal.div (Ideal.ofBits .f32 0x3F800000#32) (max s (Ideal.ofBits .f32 0x3F800000#32))
      = Ideal.div a (max s (Ideal.ofBits .f32 0x3F800000#32)) := by
  rw [ofBits_one]
  exact mul_recip a _ (clamp_ne_zero s)

end Cert.MeanLaw

end
-- ==== Proof.Layer.lean ====
/-
  One layer of neighbour averaging followed by a dense map, as a function of whole arrays, on the extended reals.

  For 50000 nodes with 96 features: from the per-node neighbour sums `agg`, the per-node neighbour counts `deg`, the
  nodes' own features `h`, two 96 × 96 weight matrices and a bias of length 96, the layer's value at node `r` and
  output feature `q` is

      max ( Σₖ (agg r k / max (deg r) 1) · Wl k q  +  Σₖ h r k · Wr k q  +  b q , 0 )          (`sageEntry`, `sageLayer`).

  A second spelling (`entry`, `blockLayer`) takes, in place of the counts, a one-column matrix `s` of ready-made
  factors and multiplies, `(agg r k · s r) · Wl k q`, and takes the bias as a one-row matrix. When `s r` is the
  reciprocal `1 / max (deg r) 1` the two spellings are one function (`blockLayer_eq_sageLayer`), by the law that a product
  with the reciprocal of a clamped count is the quotient (`Cert.MeanLaw.mul_recip_clamp`) applied under the sum.
  Nothing here depends on a program.
-/
import proofs.«162244_j89412629168562_2_alg».proof.Proof.MeanLaw
import Idealize.ShloMosaic.Lib.ValueIdx

noncomputable section

open scoped BigOperators

namespace Cert.Sage

open Idealize.ShloMosaic Idealize.ShloMosaic.ValueIdx

/-- The word of the number one, as both programs write it. -/
abbrev one : EReal := Ideal.ofBits .f32 0x3F800000#32

/-- One entry of a layer, the factor `s` given: `max (Σ (a·s)·Wl + Σ h·Wr + b, 0)`. -/
def entry (a : Fin 96 → EReal) (s : EReal) (h : Fin 96 → EReal) (Wl Wr : Fin 96 → EReal) (b : EReal) : EReal :=
  max (((∑ k : Fin 96, (a k * s) * Wl k) + ∑ k : Fin 96, h k * Wr k) + b) 0

/-- An entry depends only on the numbers it is given. -/
theorem entry_congr {a a' : Fin 96 → EReal} {s s' : EReal} {h h' Wl Wl' Wr Wr' : Fin 96 → EReal} {b b' : EReal}
    (ha : ∀ k, a k = a' k) (hs : s = s') (hh : ∀ k, h k = h' k) (hl : ∀ k, Wl k = Wl' k) (hr : ∀ k, Wr k = Wr' k)
    (hb : b = b') : entry a s h Wl Wr b = entry a' s' h' Wl' Wr' b' := by
  rw [funext ha, hs, funext hh, funext hl, funext hr, hb]

/-- One entry of a layer, the count `g` given: the neighbour sums are divided by the count clamped from below by one. -/
def sageEntry (a : Fin 96 → EReal) (g : EReal) (h : Fin 96 → EReal) (Wl Wr : Fin 96 → EReal) (b : EReal) : EReal :=
  max (((∑ k : Fin 96, Ideal.div (a k) (max g one) * Wl k) + ∑ k : Fin 96, h k * Wr k) + b) 0

/-- With the factor the reciprocal of the clamped count, the two entries are the same number. -/
theorem entry_recip (a : Fin 96 → EReal) (g : EReal) (h : Fin 96 → EReal) (Wl Wr : Fin 96 → EReal) (b : EReal) :
    entry a (Ideal.div one (max g one)) h Wl Wr b = sageEntry a g h Wl Wr b := by
  unfold entry sageEntry
  refine congrArg (fun x => max ((x + ∑ k : Fin 96, h k * Wr k) + b) 0) (Finset.sum_congr rfl fun k _ => ?_)
  rw [Cert.MeanLaw.mul_recip_clamp]

/-- The row of a 50000 × 96 index, as a number below 50000. -/
abbrev rowOf (i : (⟨2, ![50000, 96]⟩ : Shape).Idx) : Fin 50000 := ⟨(i 0).val, idx2_lt0 i⟩
/-- The column of a 50000 × 96 index, as a number below 96. -/
abbrev colOf (i : (⟨2, ![50000, 96]⟩ : Shape).Idx) : Fin 96 := ⟨(i 1).val, idx2_lt1 i⟩

/-- THE LAYER: every entry `(r, q)` from row `r` of the sums and of the features, the count of `r`, and column `q` of
    the weights and of the bias. -/
def sageLayer (agg : (⟨2, ![50000, 96]⟩ : Shape).Idx → EReal) (deg : (⟨1, ![50000]⟩ : Shape).Idx → EReal)
    (h : (⟨2, ![50000, 96]⟩ : Shape).Idx → EReal) (Wl Wr : (⟨2, ![96, 96]⟩ : Shape).Idx → EReal)
    (b : (⟨1, ![96]⟩ : Shape).Idx → EReal) : (⟨2, ![50000, 96]⟩ : Shape).Idx → EReal :=
  fun i => sageEntry (fun k => agg (ix2 (rowOf i) k)) (deg (ix1 (rowOf i))) (fun k => h (ix2 (rowOf i) k))
    (fun k => Wl (ix2 k (colOf i))) (fun k => Wr (ix2 k (colOf i))) (b (ix1 (colOf i)))

theorem sageLayer_apply (agg : (⟨2, ![50000, 96]⟩ : Shape).Idx → EReal) (deg : (⟨1, ![50000]⟩ : Shape).Idx → EReal)
    (h : (⟨2, ![50000, 96]⟩ : Shape).Idx → EReal) (Wl Wr : (⟨2, ![96, 96]⟩ : Shape).Idx → EReal)
    (b : (⟨1, ![96]⟩ : Shape).Idx → EReal) (r : Fin 50000) (q : Fin 96) :
    sageLayer agg deg h Wl Wr b (ix2 r q)
      = sageEntry (fun k => agg (ix2 r k)) (deg (ix1 r)) (fun k => h (ix2 r k)) (fun k => Wl (ix2 k q))
          (fun k => Wr (ix2 k q)) (b (ix1 q)) := rfl

/-- The layer in its second spelling: the factors a one-column matrix, the bias a one-row matrix. -/
def blockLayer (agg : (⟨2, ![50000, 96]⟩ : Shape).Idx → EReal) (s : (⟨2, ![50000, 1]⟩ : Shape).Idx → EReal)
    (h : (⟨2, ![50000, 96]⟩ : Shape).Idx → EReal) (Wl Wr : (⟨2, ![96, 96]⟩ : Shape).Idx → EReal)
    (b : (⟨2, ![1, 96]⟩ : Shape).Idx → EReal) : (⟨2, ![50000, 96]⟩ : Shape).Idx → EReal :=
  fun i => entry (fun k => agg (ix2 (rowOf i) k)) (s (ix2 (rowOf i) (0 : Fin 1))) (fun k => h (ix2 (rowOf i) k))
    (fun k => Wl (ix2 k (colOf i))) (fun k => Wr (ix2 k (colOf i))) (b (ix2 (0 : Fin 1) (colOf i)))

theorem blockLayer_apply (agg : (⟨2, ![50000, 96]⟩ : Shape).Idx → EReal) (s : (⟨2, ![50000, 1]⟩ : Shape).Idx → EReal)
    (h : (⟨2, ![50000, 96]⟩ : Shape).Idx → EReal) (Wl Wr : (⟨2, ![96, 96]⟩ : Shape).Idx → EReal)
    (b : (⟨2, ![1, 96]⟩ : Shape).Idx → EReal) (r : Fin 50000) (q : Fin 96) :
    blockLayer agg s h Wl Wr b (ix2 r q)
      = entry (fun k => agg (ix2 r k)) (s (ix2 r (0 : Fin 1))) (fun k => h (ix2 r k)) (fun k => Wl (ix2 k q))
          (fun k => Wr (ix2 k q)) (b (ix2 (0 : Fin 1) q)) := rfl

/-- The two spellings agree when the column of factors holds the reciprocals of the clamped counts and the one-row
    bias holds the bias. -/
theorem blockLayer_eq_sageLayer (agg : (⟨2, ![50000, 96]⟩ : Shape).Idx → EReal) (s : (⟨2, ![50000, 1]⟩ : Shape).Idx → EReal)
    (deg : (⟨1, ![50000]⟩ : Shape).Idx → EReal) (h : (⟨2, ![50000, 96]⟩ : Shape).Idx → EReal)
    (Wl Wr : (⟨2, ![96, 96]⟩ : Shape).Idx → EReal) (b2 : (⟨2, ![1, 96]⟩ : Shape).Idx → EReal)
    (b : (⟨1, ![96]⟩ : Shape).Idx → EReal)
    (hs : ∀ r : Fin 50000, s (ix2 r (0 : Fin 1)) = Ideal.div one (max (deg (ix1 r)) one))
    (hb : ∀ q : Fin 96, b2 (ix2 (0 : Fin 1) q) = b (ix1 q)) :
    blockLayer agg s h Wl Wr b2 = sageLayer agg deg h Wl Wr b := by
  funext i
  unfold blockLayer sageLayer
  rw [hs, hb]
  exact entry_recip _ _ _ _ _ _

end Cert.Sage

end
-- ==== Proof.DenseBody.lean ====
/-
  What one grid point of a dense layer stores, entry by entry, on the extended reals.

  A point holds a block of 5000 rows. From the block `a` of neighbour sums (5000 × 96), the column `s` of reciprocal
  counts (5000 × 1), the block `h` of the rows' own features (5000 × 96), the two 96 × 96 weight matrices `Wl`, `Wr`
  and the bias row `b` (1 × 96) it stores, at row `r` and column `q`,

      max ( Σₖ (a r k · s r) · Wl k q  +  Σₖ h r k · Wr k q  +  b q , 0 )          (`Cert.Sage.entry`).

  The changes of number format inside the body are the identity on the extended reals, a matrix product into a zero
  accumulator is the plain sum over the contracted axis, the column `s` is repeated along each row and the row `b`
  down each column. Both of the program's two layers have this body; the second differs by one identity reshape.
-/
import proofs.«162244_j89412629168562_2_alg».proof.Proof.Gen.KernelIdeal.Skeleton
import proofs.«162244_j89412629168562_2_alg».proof.Proof.LibColumns
import proofs.«162244_j89412629168562_2_alg».proof.Proof.Layer
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.DenseBody

open Cert.KernelIdeal Cert.KernelIdeal.Gen Idealize.ShloMosaic Idealize.ShloMosaic.ValueIdx Cert.Sage

/-- The block product's dimension record: rows of the left factor against columns of the right one. -/
abbrev D : DotDims S5000x96 S96x96 S5000x96 := dot_S5000x96_S96x96_S5000x96_1_0_0_1_n_n

/-- The left factor is read in the result's row … -/
theorem lhs_row (i : S5000x96.Idx) (c : D.contr.Idx) : (D.lhsIdx i c 0).val = (i 0).val := by
  unfold DotDims.lhsIdx
  rw [dif_neg (show ¬(0 : Fin S5000x96.rank) ∈ D.lhsBatch by decide),
    dif_pos (show (0 : Fin S5000x96.rank) ∈ D.lhsNonContracting by decide)]
  rfl
/-- … at the contracted position; -/
theorem lhs_col (i : S5000x96.Idx) (c : D.contr.Idx) : (D.lhsIdx i c 1).val = (c ⟨0, by decide⟩).val :=
  D.lhsIdx_val_of_single rfl i c
/-- the right factor at the contracted position … -/
theorem rhs_row (i : S5000x96.Idx) (c : D.contr.Idx) : (D.rhsIdx i c 0).val = (c ⟨0, by decide⟩).val :=
  D.rhsIdx_val_of_single rfl i c
/-- … in the result's column. -/
theorem rhs_col (i : S5000x96.Idx) (c : D.contr.Idx) : (D.rhsIdx i c 1).val = (i 1).val := by
  unfold DotDims.rhsIdx
  rw [dif_neg (show ¬(1 : Fin S96x96.rank) ∈ D.rhsBatch by decide),
    dif_pos (show (1 : Fin S96x96.rank) ∈ D.rhsNonContracting by decide)]
  rfl

/-- A block's matrix product into a zero accumulator: entry `(r, q)` is `Σₖ l r k · w k q`. -/
theorem matmul_block {φ₁ φ₂ : FTy} (l : FVec Ideal S5000x96 φ₁) (w : FVec Ideal S96x96 φ₂) (r : Fin 5000) (q : Fin 96) :
    matmul D none l w (constant S5000x96 .f32 0x00000000#32) (ix2 r q) = ∑ k : Fin 96, l (ix2 r k) * w (ix2 k q) := by
  show FloatOps.matmul D none l w (constant S5000x96 .f32 0x00000000#32) (ix2 r q) = _
  rw [Ideal.matmul_constant_zero_apply, ← Equiv.sum_comp (contrEquiv1 D 96 rfl rfl).symm]
  refine Finset.sum_congr rfl fun k _ => ?_
  have hk := contrEquiv1_symm_val D 96 rfl rfl k
  have el : D.lhsIdx (ix2 r q) ((contrEquiv1 D 96 rfl rfl).symm k) = ix2 r k := funext fun a => Fin.ext (by
    match a with
    | ⟨0, _⟩ => exact lhs_row _ _
    | ⟨1, _⟩ => exact (lhs_col _ _).trans hk)
  have er : D.rhsIdx (ix2 r q) ((contrEquiv1 D 96 rfl rfl).symm k) = ix2 k q := funext fun a => Fin.ext (by
    match a with
    | ⟨0, _⟩ => exact (rhs_row _ _).trans hk
    | ⟨1, _⟩ => exact rhs_col _ _)
  rw [el, er]

/-- The column of reciprocal counts repeated along each row. -/
theorem spread_col (s : Vec Ideal S5000x1 .f32) (r : Fin 5000) (k : Fin 96) :
    broadcastTo S5000x96 (shapeCast S5000x1 s shapeCasts_S5000x1_S5000x1) broadcasts_S5000x1_S5000x96 (ix2 r k)
      = s (ix2 r 0) := by
  rw [shapeCast_self]
  exact Cert.LibColumns.broadcastTo_col s broadcasts_S5000x1_S5000x96 r k

/-- The bias row repeated down each column. -/
theorem spread_row (b : Vec Ideal S1x96 .f32) (r : Fin 5000) (q : Fin 96) :
    broadcastTo S5000x96 (shapeCast S1x96 b shapeCasts_S1x96_S1x96) broadcasts_S1x96_S5000x96 (ix2 r q)
      = b (ix2 (0 : Fin 1) q) := by
  rw [shapeCast_self]
  exact broadcastTo_1b_ab_apply b broadcasts_S1x96_S5000x96 r q

/-- THE FIRST LAYER'S BODY at entry `(r, q)` of its block. -/
theorem body0_apply (a : Vec Ideal S5000x96 .f32) (s : Vec Ideal S5000x1 .f32) (h : Vec Ideal S5000x96 .f32)
    (Wl Wr : Vec Ideal S96x96 .f32) (b : Vec Ideal S1x96 .f32) (r : Fin 5000) (q : Fin 96) :
    k0_pay1 (F := Ideal) a s h Wl Wr b (ix2 r q)
      = entry (fun k => a (ix2 r k)) (s (ix2 r 0)) (fun k => h (ix2 r k)) (fun k => Wl (ix2 k q)) (fun k => Wr (ix2 k q))
          (b (ix2 (0 : Fin 1) q)) := by
  unfold k0_pay1 entry
  refine congrArg₂ max (congrArg₂ (· + ·) (congrArg₂ (· + ·) ?_ ?_) ?_) Ideal.ofBits_zero_f32
  · refine (matmul_block _ _ r q).trans (Finset.sum_congr rfl fun k _ => ?_)
    refine congrArg₂ (· * ·) (congrArg₂ (· * ·) ?_ (spread_col s r k)) rfl
    show shapeCast S5000x96 a shapeCasts_S5000x96_S5000x96 (ix2 r k) = a (ix2 r k)
    rw [shapeCast_self]
  · exact matmul_block _ _ r q
  · exact spread_row b r q

/-- THE SECOND LAYER'S BODY at entry `(r, q)` of its block: the same function. -/
theorem body1_apply (a : Vec Ideal S5000x96 .f32) (s : Vec Ideal S5000x1 .f32) (h : Vec Ideal S5000x96 .f32)
    (Wl Wr : Vec Ideal S96x96 .f32) (b : Vec Ideal S1x96 .f32) (r : Fin 5000) (q : Fin 96) :
    k1_pay1 (F := Ideal) a s h Wl Wr b (ix2 r q)
      = entry (fun k => a (ix2 r k)) (s (ix2 r 0)) (fun k => h (ix2 r k)) (fun k => Wl (ix2 k q)) (fun k => Wr (ix2 k q))
          (b (ix2 (0 : Fin 1) q)) := by
  unfold k1_pay1 entry
  refine congrArg₂ max (congrArg₂ (· + ·) (congrArg₂ (· + ·) ?_ ?_) ?_) Ideal.ofBits_zero_f32
  · refine (matmul_block _ _ r q).trans (Finset.sum_congr rfl fun k _ => ?_)
    refine congrArg₂ (· * ·) (congrArg₂ (· * ·) ?_ (spread_col s r k)) rfl
    show shapeCast S5000x96 a shapeCasts_S5000x96_S5000x96 (ix2 r k) = a (ix2 r k)
    rw [shapeCast_self]
  · refine (matmul_block _ _ r q).trans (Finset.sum_congr rfl fun k _ => ?_)
    refine congrArg₂ (· * ·) ?_ rfl
    show shapeCast S5000x96 h shapeCasts_S5000x96_S5000x96 (ix2 r k) = h (ix2 r k)
    rw [shapeCast_self]
  · exact spread_row b r q

end Cert.KernelIdeal.DenseBody

end
-- ==== Proof.Region.lean ====
/-
  What each of the program's two regions leaves in its result array, for ANY contents the region is entered with.

  A region runs the dense body at ten grid points. Point `t` reads row block `t` (5000 rows) of the neighbour sums, of
  the one-column matrix of factors and of the features, the whole of both weight matrices and of the bias row, and
  writes back row block `t` of the result. Row `r` of block `t` is row `5000·t + r` of the array, so what point `t`
  writes back is block `t` of ONE whole-array function of the six input arrays — `Cert.Sage.blockLayer` — and since the
  ten row blocks cover the 50000 rows, the result array after the region is that function.
-/
import proofs.«162244_j89412629168562_2_alg».proof.Proof.Gen.KernelIdeal.Frame
import proofs.«162244_j89412629168562_2_alg».proof.Proof.DenseBody
import Idealize.ShloMosaic.Lib.Pipeline.Value

set_option maxRecDepth 16384

noncomputable section

namespace Cert.KernelIdeal.Region

open Cert.KernelIdeal Cert.KernelIdeal.Gen Cert.KernelIdeal.DenseBody Idealize.ShloMosaic Idealize.ShloMosaic.TcCoe
open Idealize.ShloMosaic.ValueIdx Cert.Sage
open Idealize.SL Idealize.SL.Sem
open Idealize.ShloMosaic.Pipeline (Dat Cfg Window)

variable (V : (c : Dev nD) → (b : Ref sig .tc) → Buf (Elt Ideal) ((c : Thread nD τ).loc b))

/-- The body's loads and its store start at the corner of their buffers. -/
theorem hz : (![0, 0] : Fin 2 → Nat) = fun _ => 0 := funext fun a => by fin_cases a <;> rfl

/-! ## Layer one's region -/

/-- The index maps of region 0, decided over its ten points: the three row-blocked inputs move with the output's row
    block, the weights and the bias stay at their one block, and the output's blocks are the ten row blocks. -/
theorem idx_facts0 : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) < 10 ∧ win0_6.index t (1 : Fin 2) = 0 :=
  (by decide +kernel : ∀ t : Fin grid0.N, _)

/-- Every row block is some point's. -/
theorem idx_onto0 : ∀ (p : Fin 10), ∃ t : Fin cfg0.N, win0_6.index t = ![p.val, 0] :=
  (by decide +kernel : ∀ (p : Fin 10), ∃ t : Fin grid0.N, win0_6.index t = ![p.val, 0])

/-- Row `r` of point `t`'s block of neighbour sums is row `5000·(block of t) + r` of the array. -/
theorem read0_sums (c : Dev nD) (t : Fin cfg0.N) (r : Fin 5000) (k : Fin 96) (R : Fin 50000)
    (hR : R.val = win0_6.index t (0 : Fin 2) * 5000 + r.val) :
    iblk0 V c 0 t (ix2 r k) = V c main_v22 (ix2 R k) := by
  obtain ⟨e00, e01, -⟩ := idx_facts0 t
  show V c main_v22 (((cfg0.win 0).blk t).view.emb (ix2 r k)) = _
  refine congrArg (V c main_v22) (funext fun a => Fin.ext ?_)
  match a with
  | ⟨0, _⟩ => show win0_0.index t (0 : Fin 2) * 5000 + 1 * r.val = R.val; omega
  | ⟨1, _⟩ => show win0_0.index t (1 : Fin 2) * 96 + 1 * k.val = k.val; omega

/-- Row `r` of point `t`'s block of factors likewise. -/
theorem read0_factor (c : Dev nD) (t : Fin cfg0.N) (r : Fin 5000) (R : Fin 50000)
    (hR : R.val = win0_6.index t (0 : Fin 2) * 5000 + r.val) :
    iblk0 V c 1 t (ix2 r (0 : Fin 1)) = V c main_v12 (ix2 R (0 : Fin 1)) := by
  obtain ⟨-, -, e10, e11, -⟩ := idx_facts0 t
  show V c main_v12 (((cfg0.win 1).blk t).view.emb (ix2 r (0 : Fin 1))) = _
  refine congrArg (V c main_v12) (funext fun a => Fin.ext ?_)
  match a with
  | ⟨0, _⟩ => show win0_1.index t (0 : Fin 2) * 5000 + 1 * r.val = R.val; omega
  | ⟨1, _⟩ => show win0_1.index t (1 : Fin 2) * 1 + 1 * 0 = 0; omega

/-- Row `r` of point `t`'s block of features likewise. -/
theorem read0_feat (c : Dev nD) (t : Fin cfg0.N) (r : Fin 5000) (k : Fin 96) (R : Fin 50000)
    (hR : R.val = win0_6.index t (0 : Fin 2) * 5000 + r.val) :
    iblk0 V c 2 t (ix2 r k) = V c main_arg0 (ix2 R k) := by
  obtain ⟨-, -, -, -, e20, e21, -⟩ := idx_facts0 t
  show V c main_arg0 (((cfg0.win 2).blk t).view.emb (ix2 r k)) = _
  refine congrArg (V c main_arg0) (funext fun a => Fin.ext ?_)
  match a with
  | ⟨0, _⟩ => show win0_2.index t (0 : Fin 2) * 5000 + 1 * r.val = R.val; omega
  | ⟨1, _⟩ => show win0_2.index t (1 : Fin 2) * 96 + 1 * k.val = k.val; omega

/-- Every point's block of the left weights is the whole matrix. -/
theorem read0_wl (c : Dev nD) (t : Fin cfg0.N) (k q : Fin 96) :
    iblk0 V c 3 t (ix2 k q) = V c main_arg2 (ix2 k q) := by
  obtain ⟨-, -, -, -, -, -, e30, e31, -⟩ := idx_facts0 t
  show V c main_arg2 (((cfg0.win 3).blk t).view.emb (ix2 k q)) = _
  refine congrArg (V c main_arg2) (funext fun a => Fin.ext ?_)
  match a with
  | ⟨0, _⟩ => show win0_3.index t (0 : Fin 2) * 96 + 1 * k.val = k.val; omega
  | ⟨1, _⟩ => show win0_3.index t (1 : Fin 2) * 96 + 1 * q.val = q.val; omega

/-- Every point's block of the right weights is the whole matrix. -/
theorem read0_wr (c : Dev nD) (t : Fin cfg0.N) (k q : Fin 96) :
    iblk0 V c 4 t (ix2 k q) = V c main_arg3 (ix2 k q) := by
  obtain ⟨-, -, -, -, -, -, -, -, e40, e41, -⟩ := idx_facts0 t
  show V c main_arg3 (((cfg0.win 4).blk t).view.emb (ix2 k q)) = _
  refine congrArg (V c main_arg3) (funext fun a => Fin.ext ?_)
  match a with
  | ⟨0, _⟩ => show win0_4.index t (0 : Fin 2) * 96 + 1 * k.val = k.val; omega
  | ⟨1, _⟩ => show win0_4.index t (1 : Fin 2) * 96 + 1 * q.val = q.val; omega

/-- Every point's block of the bias is the whole row. -/
theorem read0_bias (c : Dev nD) (t : Fin cfg0.N) (q : Fin 96) :
    iblk0 V c 5 t (ix2 (0 : Fin 1) q) = V c main_v23 (ix2 (0 : Fin 1) q) := by
  obtain ⟨-, -, -, -, -, -, -, -, -, -, e50, e51, -⟩ := idx_facts0 t
  show V c main_v23 (((cfg0.win 5).blk t).view.emb (ix2 (0 : Fin 1) q)) = _
  refine congrArg (V c main_v23) (funext fun a => Fin.ext ?_)
  match a with
  | ⟨0, _⟩ => show win0_5.index t (0 : Fin 2) * 1 + 1 * 0 = 0; omega
  | ⟨1, _⟩ => show win0_5.index t (1 : Fin 2) * 96 + 1 * q.val = q.val; omega

/-- WHAT POINT `t` WRITES BACK is block `t` of the layer, a function of the six arrays as the region finds them. -/
theorem flushed0 (c : Dev nD) (t : Fin cfg0.N) :
    (dat0 V c).flushed 6 t = ((cfg0.win 6).blk t).view.read (Elt Ideal)
      (blockLayer (V c main_v22) (V c main_v12) (V c main_arg0) (V c main_arg2) (V c main_arg3) (V c main_v23)) := by
  show (cfg0.win 6).cut (grid0.coords t) ((dat0 V c).after 6 t) = _
  rw [after0_6]
  unfold out0_6
  rw [View.canon_unit_zero hz]
  simp only [View.ld_unit_zero (S := S5000x96) hz, View.ld_unit_zero (S := S5000x1) hz,
    View.ld_unit_zero (S := S96x96) hz, View.ld_unit_zero (S := S1x96) hz]
  funext j
  obtain ⟨r, q, rfl⟩ : ∃ (r : Fin 5000) (q : Fin 96), j = ix2 r q := ⟨j 0, j 1, eq_ix2 j⟩
  obtain ⟨-, -, -, -, -, -, -, -, -, -, -, -, e6lt, e61⟩ := idx_facts0 t
  have hrow : win0_6.index t (0 : Fin 2) * 5000 + r.val < 50000 := by have := r.isLt; omega
  have hi : ((cfg0.win 6).blk t).view.emb (ix2 r q)
      = ix2 (⟨win0_6.index t (0 : Fin 2) * 5000 + r.val, hrow⟩ : Fin 50000) q := by
    funext a; apply Fin.ext
    match a with
    | ⟨0, _⟩ => show win0_6.index t (0 : Fin 2) * 5000 + 1 * r.val = win0_6.index t (0 : Fin 2) * 5000 + r.val; omega
    | ⟨1, _⟩ => show win0_6.index t (1 : Fin 2) * 96 + 1 * q.val = q.val; omega
  show k0_pay1 (iblk0 V c 0 t) (iblk0 V c 1 t) (iblk0 V c 2 t) (iblk0 V c 3 t) (iblk0 V c 4 t) (iblk0 V c 5 t) (ix2 r q)
    = blockLayer (V c main_v22) (V c main_v12) (V c main_arg0) (V c main_arg2) (V c main_arg3) (V c main_v23)
        (((cfg0.win 6).blk t).view.emb (ix2 r q))
  rw [hi, blockLayer_apply]
  refine (body0_apply (iblk0 V c 0 t) (iblk0 V c 1 t) (iblk0 V c 2 t) (iblk0 V c 3 t) (iblk0 V c 4 t)
    (iblk0 V c 5 t) r q).trans ?_
  exact entry_congr (fun k => read0_sums V c t r k _ rfl) (read0_factor V c t r _ rfl)
    (fun k => read0_feat V c t r k _ rfl) (fun k => read0_wl V c t k q) (fun k => read0_wr V c t k q)
    (read0_bias V c t q)

/-- An index of the result array is in point `t`'s block iff each coordinate is in the block's range on its axis. -/
theorem mem_blk0 (t : Fin cfg0.N) (i : S50000x96.Idx) :
    i ∈ ((cfg0.win 6).blk t).view.set ↔ ∀ a : Fin 2, win0_6.index t a * S5000x96.size a ≤ (i a).val
      ∧ (i a).val < win0_6.index t a * S5000x96.size a + S5000x96.size a := by
  show i ∈ ((View.whole main_v24).slice (win0_6.rect t)).set ↔ _
  rw [View.set_slice_whole, Rect.mem_set_unit]
  exact Iff.rfl

/-- Every entry of the result array lies in the block of the point whose row block holds its row. -/
theorem cover0 (i : S50000x96.Idx) :
    ∃ t : Fin cfg0.N, (cfg0.win 6).flush t = true ∧ i ∈ ((cfg0.win 6).blk t).view.set := by
  have hi0 : (i 0).val < 50000 := (i 0).isLt
  have hi1 : (i 1).val < 96 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 96 ≤ (i 1).val ∧ (i 1).val < win0_6.index t (1 : Fin 2) * 96 + 96; omega

/-- THE RESULT ARRAY OF REGION 0 after its ten points: the layer of the six arrays the region was entered with. -/
theorem final0 (c : Dev nD) :
    (dat0 V c).arrAt 6 cfg0.N
      = blockLayer (V c main_v22) (V c main_v12) (V c main_arg0) (V c main_arg2) (V c main_arg3) (V c main_v23) :=
  (dat0 V c).arrAt_eq_of_cover 6 _ (fun t _ => flushed0 V c t) (cover0)

/-! ## Layer two's region -/

/-- The index maps of region 1, decided over its ten points: the three row-blocked inputs move with the output's row
    block, the weights and the bias stay at their one block, and the output's blocks are the ten row blocks. -/
theorem idx_facts1 : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) < 10 ∧ win1_6.index t (1 : Fin 2) = 0 :=
  (by decide +kernel : ∀ t : Fin grid1.N, _)

/-- Every row block is some point's. -/
theorem idx_onto1 : ∀ (p : Fin 10), ∃ t : Fin cfg1.N, win1_6.index t = ![p.val, 0] :=
  (by decide +kernel : ∀ (p : Fin 10), ∃ t : Fin grid1.N, win1_6.index t = ![p.val, 0])

/-- Row `r` of point `t`'s block of neighbour sums is row `5000·(block of t) + r` of the array. -/
theorem read1_sums (c : Dev nD) (t : Fin cfg1.N) (r : Fin 5000) (k : Fin 96) (R : Fin 50000)
    (hR : R.val = win1_6.index t (0 : Fin 2) * 5000 + r.val) :
    iblk1 V c 0 t (ix2 r k) = V c main_v34 (ix2 R k) := by
  obtain ⟨e00, e01, -⟩ := idx_facts1 t
  show V c main_v34 (((cfg1.win 0).blk t).view.emb (ix2 r k)) = _
  refine congrArg (V c main_v34) (funext fun a => Fin.ext ?_)
  match a with
  | ⟨0, _⟩ => show win1_0.index t (0 : Fin 2) * 5000 + 1 * r.val = R.val; omega
  | ⟨1, _⟩ => show win1_0.index t (1 : Fin 2) * 96 + 1 * k.val = k.val; omega

/-- Row `r` of point `t`'s block of factors likewise. -/
theorem read1_factor (c : Dev nD) (t : Fin cfg1.N) (r : Fin 5000) (R : Fin 50000)
    (hR : R.val = win1_6.index t (0 : Fin 2) * 5000 + r.val) :
    iblk1 V c 1 t (ix2 r (0 : Fin 1)) = V c main_v12 (ix2 R (0 : Fin 1)) := by
  obtain ⟨-, -, e10, e11, -⟩ := idx_facts1 t
  show V c main_v12 (((cfg1.win 1).blk t).view.emb (ix2 r (0 : Fin 1))) = _
  refine congrArg (V c main_v12) (funext fun a => Fin.ext ?_)
  match a with
  | ⟨0, _⟩ => show win1_1.index t (0 : Fin 2) * 5000 + 1 * r.val = R.val; omega
  | ⟨1, _⟩ => show win1_1.index t (1 : Fin 2) * 1 + 1 * 0 = 0; omega

/-- Row `r` of point `t`'s block of features likewise. -/
theorem read1_feat (c : Dev nD) (t : Fin cfg1.N) (r : Fin 5000) (k : Fin 96) (R : Fin 50000)
    (hR : R.val = win1_6.index t (0 : Fin 2) * 5000 + r.val) :
    iblk1 V c 2 t (ix2 r k) = V c main_v24 (ix2 R k) := by
  obtain ⟨-, -, -, -, e20, e21, -⟩ := idx_facts1 t
  show V c main_v24 (((cfg1.win 2).blk t).view.emb (ix2 r k)) = _
  refine congrArg (V c main_v24) (funext fun a => Fin.ext ?_)
  match a with
  | ⟨0, _⟩ => show win1_2.index t (0 : Fin 2) * 5000 + 1 * r.val = R.val; omega
  | ⟨1, _⟩ => show win1_2.index t (1 : Fin 2) * 96 + 1 * k.val = k.val; omega

/-- Every point's block of the left weights is the whole matrix. -/
theorem read1_wl (c : Dev nD) (t : Fin cfg1.N) (k q : Fin 96) :
    iblk1 V c 3 t (ix2 k q) = V c main_arg5 (ix2 k q) := by
  obtain ⟨-, -, -, -, -, -, e30, e31, -⟩ := idx_facts1 t
  show V c main_arg5 (((cfg1.win 3).blk t).view.emb (ix2 k q)) = _
  refine congrArg (V c main_arg5) (funext fun a => Fin.ext ?_)
  match a with
  | ⟨0, _⟩ => show win1_3.index t (0 : Fin 2) * 96 + 1 * k.val = k.val; omega
  | ⟨1, _⟩ => show win1_3.index t (1 : Fin 2) * 96 + 1 * q.val = q.val; omega

/-- Every point's block of the right weights is the whole matrix. -/
theorem read1_wr (c : Dev nD) (t : Fin cfg1.N) (k q : Fin 96) :
    iblk1 V c 4 t (ix2 k q) = V c main_arg6 (ix2 k q) := by
  obtain ⟨-, -, -, -, -, -, -, -, e40, e41, -⟩ := idx_facts1 t
  show V c main_arg6 (((cfg1.win 4).blk t).view.emb (ix2 k q)) = _
  refine congrArg (V c main_arg6) (funext fun a => Fin.ext ?_)
  match a with
  | ⟨0, _⟩ => show win1_4.index t (0 : Fin 2) * 96 + 1 * k.val = k.val; omega
  | ⟨1, _⟩ => show win1_4.index t (1 : Fin 2) * 96 + 1 * q.val = q.val; omega

/-- Every point's block of the bias is the whole row. -/
theorem read1_bias (c : Dev nD) (t : Fin cfg1.N) (q : Fin 96) :
    iblk1 V c 5 t (ix2 (0 : Fin 1) q) = V c main_v35 (ix2 (0 : Fin 1) q) := by
  obtain ⟨-, -, -, -, -, -, -, -, -, -, e50, e51, -⟩ := idx_facts1 t
  show V c main_v35 (((cfg1.win 5).blk t).view.emb (ix2 (0 : Fin 1) q)) = _
  refine congrArg (V c main_v35) (funext fun a => Fin.ext ?_)
  match a with
  | ⟨0, _⟩ => show win1_5.index t (0 : Fin 2) * 1 + 1 * 0 = 0; omega
  | ⟨1, _⟩ => show win1_5.index t (1 : Fin 2) * 96 + 1 * q.val = q.val; omega

/-- WHAT POINT `t` WRITES BACK is block `t` of the layer, a function of the six arrays as the region finds them. -/
theorem flushed1 (c : Dev nD) (t : Fin cfg1.N) :
    (dat1 V c).flushed 6 t = ((cfg1.win 6).blk t).view.read (Elt Ideal)
      (blockLayer (V c main_v34) (V c main_v12) (V c main_v24) (V c main_arg5) (V c main_arg6) (V c main_v35)) := by
  show (cfg1.win 6).cut (grid1.coords t) ((dat1 V c).after 6 t) = _
  rw [after1_6]
  unfold out1_6
  rw [View.canon_unit_zero hz]
  simp only [View.ld_unit_zero (S := S5000x96) hz, View.ld_unit_zero (S := S5000x1) hz,
    View.ld_unit_zero (S := S96x96) hz, View.ld_unit_zero (S := S1x96) hz]
  funext j
  obtain ⟨r, q, rfl⟩ : ∃ (r : Fin 5000) (q : Fin 96), j = ix2 r q := ⟨j 0, j 1, eq_ix2 j⟩
  obtain ⟨-, -, -, -, -, -, -, -, -, -, -, -, e6lt, e61⟩ := idx_facts1 t
  have hrow : win1_6.index t (0 : Fin 2) * 5000 + r.val < 50000 := by have := r.isLt; omega
  have hi : ((cfg1.win 6).blk t).view.emb (ix2 r q)
      = ix2 (⟨win1_6.index t (0 : Fin 2) * 5000 + r.val, hrow⟩ : Fin 50000) q := by
    funext a; apply Fin.ext
    match a with
    | ⟨0, _⟩ => show win1_6.index t (0 : Fin 2) * 5000 + 1 * r.val = win1_6.index t (0 : Fin 2) * 5000 + r.val; omega
    | ⟨1, _⟩ => show win1_6.index t (1 : Fin 2) * 96 + 1 * q.val = q.val; omega
  show k1_pay1 (iblk1 V c 0 t) (iblk1 V c 1 t) (iblk1 V c 2 t) (iblk1 V c 3 t) (iblk1 V c 4 t) (iblk1 V c 5 t) (ix2 r q)
    = blockLayer (V c main_v34) (V c main_v12) (V c main_v24) (V c main_arg5) (V c main_arg6) (V c main_v35)
        (((cfg1.win 6).blk t).view.emb (ix2 r q))
  rw [hi, blockLayer_apply]
  refine (body1_apply (iblk1 V c 0 t) (iblk1 V c 1 t) (iblk1 V c 2 t) (iblk1 V c 3 t) (iblk1 V c 4 t)
    (iblk1 V c 5 t) r q).trans ?_
  exact entry_congr (fun k => read1_sums V c t r k _ rfl) (read1_factor V c t r _ rfl)
    (fun k => read1_feat V c t r k _ rfl) (fun k => read1_wl V c t k q) (fun k => read1_wr V c t k q)
    (read1_bias V c t q)

/-- An index of the result array is in point `t`'s block iff each coordinate is in the block's range on its axis. -/
theorem mem_blk1 (t : Fin cfg1.N) (i : S50000x96.Idx) :
    i ∈ ((cfg1.win 6).blk t).view.set ↔ ∀ a : Fin 2, win1_6.index t a * S5000x96.size a ≤ (i a).val
      ∧ (i a).val < win1_6.index t a * S5000x96.size a + S5000x96.size a := by
  show i ∈ ((View.whole main_v36).slice (win1_6.rect t)).set ↔ _
  rw [View.set_slice_whole, Rect.mem_set_unit]
  exact Iff.rfl

/-- Every entry of the result array lies in the block of the point whose row block holds its row. -/
theorem cover1 (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  obtain ⟨t, ht⟩ := idx_onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 96 ≤ (i 1).val ∧ (i 1).val < win1_6.index t (1 : Fin 2) * 96 + 96; omega

/-- THE RESULT ARRAY OF REGION 1 after its ten points: the layer of the six arrays the region was entered with. -/
theorem final1 (c : Dev nD) :
    (dat1 V c).arrAt 6 cfg1.N
      = blockLayer (V c main_v34) (V c main_v12) (V c main_v24) (V c main_arg5) (V c main_arg6) (V c main_v35) :=
  (dat1 V c).arrAt_eq_of_cover 6 _ (fun t _ => flushed1 V c t) (cover1)

end Cert.KernelIdeal.Region

end
-- ==== Proof.HostTerms.lean ====
/-
  The host operations around the two regions, named.

  Before each region the host prepares three things from the edge list. From the edges' sources `s`, the edges' targets
  `d` and a feature matrix `h`: the NEIGHBOUR SUMS (`aggOf`: rows of `h` gathered at the sources — a negative source
  first wrapped round by adding 50000 — and added up at the targets, from zero). From the targets alone: the NEIGHBOUR
  COUNTS (`degOf`: ones added up at the targets, from zero), then the column of RECIPROCALS of the counts clamped from
  below by one (`recipCol`). And the bias, re-laid as a one-row matrix.

  The gather and the two additions at the targets are never opened: they are the very operations the reference applies,
  and `aggOf_ref`, `degOf_ref` say so — this program's chains are the reference's stage functions `val_main_v13` and
  `val_main_v17` of the same arguments. What is read at an index is only the layout: the reciprocal column at row `r` is
  `1 / max (deg r) 1`, the one-row bias at column `q` is `b q`.
-/
import proofs.«162244_j89412629168562_2_alg».proof.Proof.Gen.KernelIdeal
import proofs.«162244_j89412629168562_2_alg».proof.Proof.Gen.ReferenceIdeal.Read
import proofs.«162244_j89412629168562_2_alg».proof.Proof.LibColumns
import proofs.«162244_j89412629168562_2_alg».proof.Proof.Layer
import Idealize.ShloMosaic.Lib.ValueLayout

noncomputable section

namespace Cert.KernelIdeal.HostTerms

open Cert.KernelIdeal Cert.KernelIdeal.Facts₀ Cert.KernelIdeal.Facts Idealize.ShloMosaic Idealize.ShloMosaic.ValueIdx Cert.Sage

/-- The neighbour sums of the features `h` over the edges with sources `s` and targets `d`. -/
def aggOf (h : (⟨S50000x96, .f32⟩ : BufTy).Contents (Elt Ideal)) (s d : (⟨S800000, .i32⟩ : BufTy).Contents (Elt Ideal)) :
    (⟨S50000x96, .f32⟩ : BufTy).Contents (Elt Ideal) :=
  Host.scatterAdd scatter_S50000x96_S800000x1_S800000x96_1_0_0_1
    (broadcastInDim S50000x96 ![] bcast_S_S50000x96 (constant (F := Ideal) S_ .f32 0x00000000#32))
    (broadcastInDim S800000x1 ![0] bcast_S800000_S800000x1_0 d)
    (Host.gather gather_S50000x96_S800000x1_S800000x96_1_0_n_n_0_1_196 h
      (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s)))

/-- The neighbour counts over the edges with targets `d`. -/
def degOf (d : (⟨S800000, .i32⟩ : BufTy).Contents (Elt Ideal)) : (⟨S50000, .f32⟩ : BufTy).Contents (Elt Ideal) :=
  Host.scatterAdd scatter_S50000_S800000x1_S800000_n_0_0_1
    (broadcastInDim S50000 ![] bcast_S_S50000 (constant (F := Ideal) S_ .f32 0x00000000#32))
    (broadcastInDim S800000x1 ![0] bcast_S800000_S800000x1_0 d)
    (broadcastInDim S800000 ![] bcast_S_S800000 (constant (F := Ideal) S_ .f32 0x3F800000#32))

/-- The column of reciprocals of the counts clamped from below by one. -/
def recipCol (deg : (⟨S50000, .f32⟩ : BufTy).Contents (Elt Ideal)) : (⟨S50000x1, .f32⟩ : BufTy).Contents (Elt Ideal) :=
  shapeCast S50000x1
    (Host.divf (F := Ideal) (broadcastInDim S50000 ![] bcast_S_S50000 (constant (F := Ideal) S_ .f32 0x3F800000#32))
      (maximumf deg (broadcastInDim S50000 ![] bcast_S_S50000 (constant (F := Ideal) S_ .f32 0x3F800000#32))))
    shapeCasts_S50000_S50000x1

/-- The bias as a one-row matrix. -/
def biasRow (b : (⟨S96, .f32⟩ : BufTy).Contents (Elt Ideal)) : (⟨S1x96, .f32⟩ : BufTy).Contents (Elt Ideal) :=
  shapeCast S1x96 b shapeCasts_S96_S1x96

/-- This program's neighbour sums are the reference's, as functions of the features and the edge list. -/
theorem aggOf_ref (h : (⟨S50000x96, .f32⟩ : BufTy).Contents (Elt Ideal)) (e : (⟨S2x800000, .i32⟩ : BufTy).Contents (Elt Ideal)) :
    aggOf h (Cert.ReferenceIdeal.Read.val_main_v1 (F := Ideal) e) (Cert.ReferenceIdeal.Read.val_main_v3 (F := Ideal) e)
      = Cert.ReferenceIdeal.Read.val_main_v13 (F := Ideal) h e := rfl

/-- This program's neighbour counts are the reference's, as functions of the edge list. -/
theorem degOf_ref (e : (⟨S2x800000, .i32⟩ : BufTy).Contents (Elt Ideal)) :
    degOf (Cert.ReferenceIdeal.Read.val_main_v3 (F := Ideal) e) = Cert.ReferenceIdeal.Read.val_main_v17 (F := Ideal) e := rfl

/-- Row `r` of the reciprocal column is `1 / max (deg r) 1`. -/
theorem recipCol_apply (deg : (⟨S50000, .f32⟩ : BufTy).Contents (Elt Ideal)) (r : Fin 50000) :
    recipCol deg (ix2 r (0 : Fin 1)) = Ideal.div one (max (deg (ix1 r)) one) := by
  unfold recipCol
  rw [Cert.LibColumns.shapeCast_vec_col]
  show Ideal.div (broadcastInDim S50000 ![] bcast_S_S50000 (constant (F := Ideal) S_ .f32 0x3F800000#32) (ix1 r))
    (max (deg (ix1 r)) (broadcastInDim S50000 ![] bcast_S_S50000 (constant (F := Ideal) S_ .f32 0x3F800000#32) (ix1 r))) = _
  rw [Cert.LibColumns.broadcastInDim_scalar]
  rfl

/-- Column `q` of the one-row bias is `b q`. -/
theorem biasRow_apply (b : (⟨S96, .f32⟩ : BufTy).Contents (Elt Ideal)) (q : Fin 96) :
    biasRow b (ix2 (0 : Fin 1) q) = b (ix1 q) := by
  unfold biasRow
  exact shapeCast_a_1a_apply b shapeCasts_S96_S1x96 (0 : Fin 1) q

end Cert.KernelIdeal.HostTerms

end
-- ==== Proof.BeforeFirst.lean ====
/-
  The host operations before the first region, read at the buffers the region will be given — from ANY contents `W`
  of the buffers at the start. The edge list is cut into its row of sources and its row of targets; the neighbour sums of
  the input features, the reciprocal column of the clamped neighbour counts and the one-row bias are computed; the
  features and the two weight matrices are not written at all.
-/
import proofs.«162244_j89412629168562_2_alg».proof.Proof.Gen.KernelIdeal.Launch
import proofs.«162244_j89412629168562_2_alg».proof.Proof.HostTerms
import Idealize.ShloMosaic.Lib.StableHlo.Run

set_option maxRecDepth 16384

noncomputable section

namespace Cert.KernelIdeal.BeforeFirst

open Cert.KernelIdeal Cert.KernelIdeal.Gen Cert.KernelIdeal.HostTerms Idealize.ShloMosaic Idealize.ShloMosaic.TcCoe
open Idealize.SL Idealize.SL.Sem Idealize.ShloMosaic.StableHlo

-- the buffers' contents when the stretch begins: any
variable (W : Valuation τ sig (Elt Ideal))

/-- The edges' sources and targets: the two rows of the edge list. -/
theorem sources : StableHlo.after hostOps0 W (Proc.devRef .tc main_v1)
    = Cert.ReferenceIdeal.Read.val_main_v1 (F := Ideal) (W (Proc.devRef .tc main_arg1)) := by
  after_results; rfl
theorem targets : StableHlo.after hostOps0 W (Proc.devRef .tc main_v3)
    = Cert.ReferenceIdeal.Read.val_main_v3 (F := Ideal) (W (Proc.devRef .tc main_arg1)) := by
  after_results; rfl

set_option maxHeartbeats 2000000 in
/-- The neighbour sums of the input features. -/
theorem sums : StableHlo.after hostOps0 W (Proc.devRef .tc main_v22)
    = Cert.ReferenceIdeal.Read.val_main_v13 (F := Ideal) (W (Proc.devRef .tc main_arg0)) (W (Proc.devRef .tc main_arg1)) := by
  after_results; rfl

end Cert.KernelIdeal.BeforeFirst

end
-- ==== Proof.BeforeFirstB.lean ====
/-
  The host operations before the first region, continued: the reciprocal column of the clamped neighbour counts, the
  one-row bias, and the three argument arrays the region reads that no host operation writes — from ANY contents `W` of
  the buffers at the start.
-/
import proofs.«162244_j89412629168562_2_alg».proof.Proof.Gen.KernelIdeal.Launch
import proofs.«162244_j89412629168562_2_alg».proof.Proof.HostTerms
import Idealize.ShloMosaic.Lib.StableHlo.Run

set_option maxRecDepth 16384

noncomputable section

namespace Cert.KernelIdeal.BeforeFirstB

open Cert.KernelIdeal Cert.KernelIdeal.Gen Cert.KernelIdeal.HostTerms Idealize.ShloMosaic Idealize.ShloMosaic.TcCoe
open Idealize.SL Idealize.SL.Sem Idealize.ShloMosaic.StableHlo

-- the buffers' contents when the stretch begins: any
variable (W : Valuation τ sig (Elt Ideal))

/-- The reciprocal column, of the reference's neighbour counts. -/
theorem recip : StableHlo.after hostOps0 W (Proc.devRef .tc main_v12)
    = recipCol (Cert.ReferenceIdeal.Read.val_main_v17 (F := Ideal) (W (Proc.devRef .tc main_arg1))) := by
  after_results; rfl

/-- The first layer's bias as a one-row matrix. -/
theorem bias : StableHlo.after hostOps0 W (Proc.devRef .tc main_v23) = biasRow (W (Proc.devRef .tc main_arg4)) := by
  after_results; rfl

/-- The features and the first layer's weights are not written. -/
theorem feat : StableHlo.after hostOps0 W (Proc.devRef .tc main_arg0) = W (Proc.devRef .tc main_arg0) := by
  after_results
theorem wl : StableHlo.after hostOps0 W (Proc.devRef .tc main_arg2) = W (Proc.devRef .tc main_arg2) := by
  after_results
theorem wr : StableHlo.after hostOps0 W (Proc.devRef .tc main_arg3) = W (Proc.devRef .tc main_arg3) := by
  after_results

end Cert.KernelIdeal.BeforeFirstB

end
-- ==== Proof.BeforeSecond.lean ====
/-
  The host operations between the two regions, read at the buffers the second region will be given — from ANY contents
  `W` of the buffers when the first region has ended. The neighbour sums are taken again, now of the first region's result
  array, over the same sources and targets; the second bias is re-laid as a one-row matrix; the reciprocal column, the
  first region's result and the second bias argument are not written.
-/
import proofs.«162244_j89412629168562_2_alg».proof.Proof.Gen.KernelIdeal.Launch
import proofs.«162244_j89412629168562_2_alg».proof.Proof.HostTerms
import Idealize.ShloMosaic.Lib.StableHlo.Run

set_option maxRecDepth 16384

noncomputable section

namespace Cert.KernelIdeal.BeforeSecond

open Cert.KernelIdeal Cert.KernelIdeal.Gen Cert.KernelIdeal.HostTerms Idealize.ShloMosaic Idealize.ShloMosaic.TcCoe
open Idealize.SL Idealize.SL.Sem Idealize.ShloMosaic.StableHlo

-- the buffers' contents when the stretch begins: any
variable (W : Valuation τ sig (Elt Ideal))

/-- The neighbour sums of the first layer's result. -/
theorem sums : StableHlo.after hostOps1 W (Proc.devRef .tc main_v34)
    = aggOf (W (Proc.devRef .tc main_v24)) (W (Proc.devRef .tc main_v1)) (W (Proc.devRef .tc main_v3)) := by
  after_results; rfl

/-- The second layer's bias as a one-row matrix. -/
theorem bias : StableHlo.after hostOps1 W (Proc.devRef .tc main_v35) = biasRow (W (Proc.devRef .tc main_arg7)) := by
  after_results; rfl

/-- The reciprocal column and the first layer's result are not written. -/
theorem recip : StableHlo.after hostOps1 W (Proc.devRef .tc main_v12) = W (Proc.devRef .tc main_v12) := by
  after_results
theorem feat : StableHlo.after hostOps1 W (Proc.devRef .tc main_v24) = W (Proc.devRef .tc main_v24) := by
  after_results

/-- Nor is the second layer's bias argument. -/
theorem biasArg : StableHlo.after hostOps1 W (Proc.devRef .tc main_arg7) = W (Proc.devRef .tc main_arg7) := by
  after_results

end Cert.KernelIdeal.BeforeSecond

end
-- ==== Proof.Result.lean ====
/-
  The value the program's result array ends at: two layers of `Cert.Sage.sageLayer`.

  Following the buffers through @main's four segments. The first host stretch prepares, from the launch memory, the
  neighbour sums of the input features, the reciprocal column of the clamped neighbour counts and the one-row bias; the
  first region leaves in its result array `Cert.Sage.blockLayer` of those and of the features and weights, which — the
  column being the reciprocals, the row being the bias — is `sageLayer` of the sums, the counts, the features, the weights
  and the bias: the first layer `layer1`. The second host stretch takes the neighbour sums of THAT array over the same
  edges and re-lays the second bias; the reciprocal column is still the one prepared at the start; the second region
  leaves `sageLayer` of the new sums, the same counts, the first layer, the second weights and bias: `layer2`, where the
  last boundary's contents hold the result.
-/
import proofs.«162244_j89412629168562_2_alg».proof.Proof.Region
import proofs.«162244_j89412629168562_2_alg».proof.Proof.BeforeFirst
import proofs.«162244_j89412629168562_2_alg».proof.Proof.BeforeFirstB
import proofs.«162244_j89412629168562_2_alg».proof.Proof.BeforeSecond

set_option maxRecDepth 16384

noncomputable section

namespace Cert.KernelIdeal.Result

open Cert.KernelIdeal Cert.KernelIdeal.Gen Cert.KernelIdeal.HostTerms Idealize.ShloMosaic Idealize.ShloMosaic.TcCoe
open Idealize.ShloMosaic.ValueIdx Cert.Sage
open Idealize.SL Idealize.SL.Sem
open Idealize.ShloMosaic.Pipeline (Dat Cfg Window)

variable (m : (ℓ : Loc nD τ sig) → Buf (Elt Ideal) ℓ) (ρ : Dev nD → PrngReg)

/-- The first layer, of the launch memory's arguments: sums and counts the shared functions of the features and the
    edge list. -/
def layer1 (c : Dev nD) : Buf (Elt Ideal) ((c.tc : Thread nD τ).loc main_v24) :=
  sageLayer
    (Cert.ReferenceIdeal.Read.val_main_v13 (F := Ideal) (m ((c.tc : Thread nD τ).loc main_arg0)) (m ((c.tc : Thread nD τ).loc main_arg1)))
    (Cert.ReferenceIdeal.Read.val_main_v17 (F := Ideal) (m ((c.tc : Thread nD τ).loc main_arg1)))
    (m ((c.tc : Thread nD τ).loc main_arg0)) (m ((c.tc : Thread nD τ).loc main_arg2))
    (m ((c.tc : Thread nD τ).loc main_arg3)) (m ((c.tc : Thread nD τ).loc main_arg4))

/-- The second layer, over the first: the sums are taken of the first layer, the counts are the same. -/
def layer2 (c : Dev nD) : Buf (Elt Ideal) ((c.tc : Thread nD τ).loc main_v36) :=
  sageLayer
    (Cert.ReferenceIdeal.Read.val_main_v13 (F := Ideal) (layer1 m c) (m ((c.tc : Thread nD τ).loc main_arg1)))
    (Cert.ReferenceIdeal.Read.val_main_v17 (F := Ideal) (m ((c.tc : Thread nD τ).loc main_arg1)))
    (layer1 m c) (m ((c.tc : Thread nD τ).loc main_arg5))
    (m ((c.tc : Thread nD τ).loc main_arg6)) (m ((c.tc : Thread nD τ).loc main_arg7))

/-- THE FIRST REGION's result array is the first layer. -/
theorem first (c : Dev nD) : (dat0 (V1 m ρ) c).arrAt 6 cfg0.N = layer1 m c := by
  have h22 : V1 m ρ c main_v22 = Cert.ReferenceIdeal.Read.val_main_v13 (F := Ideal) (m ((c.tc : Thread nD τ).loc main_arg0))
      (m ((c.tc : Thread nD τ).loc main_arg1)) := BeforeFirst.sums (W0 m ρ c)
  have h12 : V1 m ρ c main_v12 = recipCol (Cert.ReferenceIdeal.Read.val_main_v17 (F := Ideal) (m ((c.tc : Thread nD τ).loc main_arg1))) :=
    BeforeFirstB.recip (W0 m ρ c)
  have h0 : V1 m ρ c main_arg0 = m ((c.tc : Thread nD τ).loc main_arg0) := BeforeFirstB.feat (W0 m ρ c)
  have h2 : V1 m ρ c main_arg2 = m ((c.tc : Thread nD τ).loc main_arg2) := BeforeFirstB.wl (W0 m ρ c)
  have h3 : V1 m ρ c main_arg3 = m ((c.tc : Thread nD τ).loc main_arg3) := BeforeFirstB.wr (W0 m ρ c)
  have h23 : V1 m ρ c main_v23 = biasRow (m ((c.tc : Thread nD τ).loc main_arg4)) := BeforeFirstB.bias (W0 m ρ c)
  rw [Region.final0 (V1 m ρ) c, h22, h12, h0, h2, h3, h23]
  exact blockLayer_eq_sageLayer _ _ _ _ _ _ _ _ (fun r => recipCol_apply _ r) (fun q => biasRow_apply _ q)

/-- The sources and targets, prepared before the first region, are still in place after it. -/
theorem sources_kept (c : Dev nD) : W2 m ρ c (Proc.devRef .tc main_v1)
    = Cert.ReferenceIdeal.Read.val_main_v1 (F := Ideal) (m ((c.tc : Thread nD τ).loc main_arg1)) :=
  (W2_of_ne m ρ c main_v1 (by decide)).trans (BeforeFirst.sources (W0 m ρ c))
theorem targets_kept (c : Dev nD) : W2 m ρ c (Proc.devRef .tc main_v3)
    = Cert.ReferenceIdeal.Read.val_main_v3 (F := Ideal) (m ((c.tc : Thread nD τ).loc main_arg1)) :=
  (W2_of_ne m ρ c main_v3 (by decide)).trans (BeforeFirst.targets (W0 m ρ c))

/-- After the first region its result buffer holds the first layer … -/
theorem first_kept (c : Dev nD) : W2 m ρ c (Proc.devRef .tc main_v24) = layer1 m c :=
  (W2_arr m ρ c 6).trans (first m ρ c)
/-- … and the reciprocal column, an input of the region, is as prepared. -/
theorem recip_kept (c : Dev nD) : W2 m ρ c (Proc.devRef .tc main_v12)
    = recipCol (Cert.ReferenceIdeal.Read.val_main_v17 (F := Ideal) (m ((c.tc : Thread nD τ).loc main_arg1))) :=
  (W2_arr m ρ c 1).trans (((dat0 (V1 m ρ) c).arrAt_in 1 rfl _).trans ((A_eq0 (V1 m ρ) c 1).trans (BeforeFirstB.recip (W0 m ρ c))))

/-- THE RESULT: the last boundary's contents at the result buffer are the second layer. -/
theorem second (c : Dev nD) : W4 m ρ c (Proc.devRef .tc main_v36) = layer2 m c := by
  have h24 : V3 m ρ c main_v24 = layer1 m c := (BeforeSecond.feat (W2 m ρ c)).trans (first_kept m ρ c)
  have h34 : V3 m ρ c main_v34 = Cert.ReferenceIdeal.Read.val_main_v13 (F := Ideal) (layer1 m c) (m ((c.tc : Thread nD τ).loc main_arg1)) := by
    refine (BeforeSecond.sums (W2 m ρ c)).trans ?_
    rw [first_kept m ρ c, sources_kept m ρ c, targets_kept m ρ c]
    exact aggOf_ref _ _
  have h12 : V3 m ρ c main_v12 = recipCol (Cert.ReferenceIdeal.Read.val_main_v17 (F := Ideal) (m ((c.tc : Thread nD τ).loc main_arg1))) :=
    (BeforeSecond.recip (W2 m ρ c)).trans (recip_kept m ρ c)
  -- the second layer's weights are input windows of the second region: it leaves them as it found them
  have h5 : V3 m ρ c main_arg5 = m ((c.tc : Thread nD τ).loc main_arg5) :=
    ((W4_arr m ρ c 3).trans (((dat1 (V3 m ρ) c).arrAt_in 3 rfl _).trans (A_eq1 (V3 m ρ) c 3))).symm.trans
      (W4_main_arg5 m ρ c)
  have h6 : V3 m ρ c main_arg6 = m ((c.tc : Thread nD τ).loc main_arg6) :=
    ((W4_arr m ρ c 4).trans (((dat1 (V3 m ρ) c).arrAt_in 4 rfl _).trans (A_eq1 (V3 m ρ) c 4))).symm.trans
      (W4_main_arg6 m ρ c)
  have h7 : W2 m ρ c (Proc.devRef .tc main_arg7) = m ((c.tc : Thread nD τ).loc main_arg7) :=
    (BeforeSecond.biasArg (W2 m ρ c)).symm.trans ((W4_of_ne m ρ c main_arg7 (by decide)).symm.trans (W4_main_arg7 m ρ c))
  have h35 : V3 m ρ c main_v35 = biasRow (m ((c.tc : Thread nD τ).loc main_arg7)) :=
    (BeforeSecond.bias (W2 m ρ c)).trans (congrArg biasRow h7)
  refine (W4_arr m ρ c 6).trans ?_
  rw [Region.final1 (V3 m ρ) c, h34, h12, h24, h5, h6, h35]
  exact blockLayer_eq_sageLayer _ _ _ _ _ _ _ _ (fun r => recipCol_apply _ r) (fun q => biasRow_apply _ q)

end Cert.KernelIdeal.Result

end
-- ==== Proof.RefLayers.lean ====
/-
  The reference program's two layers are `Cert.Sage.sageLayer`.

  Read one operation at a time, the reference computes, per layer: the neighbour sums (a gather of the features along the
  edges' sources, added up at the edges' targets), the neighbour counts (ones added up at the targets), the counts
  clamped from below by one and repeated along each row, the quotient, two matrix products with the weights, the bias
  repeated down each column, and a clamp from below by zero. At node `r` and feature `q` that is
  `max (Σₖ (agg r k / max (deg r) 1) · Wl k q + Σₖ h r k · Wr k q + b q, 0)`: the layer of `Cert.Sage`, with the sums
  and the counts the reference's own stages — functions of the features and of the edge list that are never opened here.
  The second layer's sums are the same function of the first layer's result, and its counts are the first layer's.
-/
import proofs.«162244_j89412629168562_2_alg».proof.Proof.Gen.ReferenceIdeal.Read
import proofs.«162244_j89412629168562_2_alg».proof.Proof.Layer

noncomputable section

open scoped BigOperators

namespace Cert.ReferenceIdeal.Layers

open Cert.ReferenceIdeal Cert.ReferenceIdeal.Read Idealize.ShloMosaic Idealize.ShloMosaic.ValueIdx Cert.Sage

/-- A row of the left factor of a product at `(r, q)`. -/
theorem lrow (r : Fin 50000) (q k : Fin 96) : lidx_main_v23 (ix2 r q) k = ix2 r k :=
  funext fun a => Fin.ext (by match a with | ⟨0, _⟩ => rfl | ⟨1, _⟩ => rfl)
/-- A column of the right factor of a product at `(r, q)`. -/
theorem rcol (r : Fin 50000) (q k : Fin 96) : ridx_main_v23 (ix2 r q) k = ix2 k q :=
  funext fun a => Fin.ext (by match a with | ⟨0, _⟩ => rfl | ⟨1, _⟩ => rfl)
/-- The clamped counts repeated along a row are read at the row. -/
theorem count_at (r : Fin 50000) (k : Fin 96) : idx_main_v20 (idx_main_v21 (ix2 r k)) = ix1 r :=
  funext fun a => Fin.ext (by match a with | ⟨0, _⟩ => rfl)
/-- The bias repeated down a column is read at the column. -/
theorem bias_at (r : Fin 50000) (q : Fin 96) : idx_main_v26 (idx_main_v27 (ix2 r q)) = ix1 q :=
  funext fun a => Fin.ext (by match a with | ⟨0, _⟩ => rfl)

/-- THE FIRST LAYER of the reference. -/
theorem layer1 (x0 : (⟨S50000x96, .f32⟩ : BufTy).Contents (Elt Ideal)) (x1 : (⟨S2x800000, .i32⟩ : BufTy).Contents (Elt Ideal))
    (x2 x3 : (⟨S96x96, .f32⟩ : BufTy).Contents (Elt Ideal)) (x4 : (⟨S96, .f32⟩ : BufTy).Contents (Elt Ideal)) :
    val_main_v29 (F := Ideal) x0 x1 x2 x3 x4
      = sageLayer (val_main_v13 (F := Ideal) x0 x1) (val_main_v17 (F := Ideal) x1) x0 x2 x3 x4 := by
  funext i
  obtain ⟨r, q, rfl⟩ : ∃ (r : Fin 50000) (q : Fin 96), i = ix2 r q := ⟨i 0, i 1, eq_ix2 i⟩
  rw [sageLayer_apply, val_main_v29_apply, val_main_v28_apply, val_main_v25_apply, val_main_v23_apply, val_main_v24_apply,
    val_main_v27_apply, val_main_v26_apply, val_main_call0_v0_apply, val_main_call0_cst_apply, bias_at]
  unfold sageEntry
  refine congrArg₂ max (congrArg₂ (· + ·) (congrArg₂ (· + ·) (Finset.sum_congr rfl fun k _ => ?_)
    (Finset.sum_congr rfl fun k _ => ?_)) rfl) Ideal.ofBits_zero_f32
  · rw [lrow, rcol, val_main_v22_apply, val_main_v21_apply, val_main_v20_apply, val_main_v19_apply, val_main_v18_apply,
      val_main_cst_3_apply, count_at]
    rfl
  · exact congrArg₂ (· * ·) (congrArg x0 (lrow r q k)) (congrArg x3 (rcol r q k))

/-- The second layer's neighbour sums: the same gather-and-add, applied to the first layer's result. -/
theorem sums2 (x0 : (⟨S50000x96, .f32⟩ : BufTy).Contents (Elt Ideal)) (x1 : (⟨S2x800000, .i32⟩ : BufTy).Contents (Elt Ideal))
    (x2 x3 : (⟨S96x96, .f32⟩ : BufTy).Contents (Elt Ideal)) (x4 : (⟨S96, .f32⟩ : BufTy).Contents (Elt Ideal)) :
    val_main_v43 (F := Ideal) x0 x1 x2 x3 x4
      = val_main_v13 (F := Ideal) (val_main_v29 (F := Ideal) x0 x1 x2 x3 x4) x1 := rfl

/-- The second layer's neighbour counts are the first layer's. -/
theorem counts2 (x1 : (⟨S2x800000, .i32⟩ : BufTy).Contents (Elt Ideal)) :
    val_main_v47 (F := Ideal) x1 = val_main_v17 (F := Ideal) x1 := rfl

theorem lrow53 (r : Fin 50000) (q k : Fin 96) : lidx_main_v53 (ix2 r q) k = ix2 r k :=
  funext fun a => Fin.ext (by match a with | ⟨0, _⟩ => rfl | ⟨1, _⟩ => rfl)
theorem rcol53 (r : Fin 50000) (q k : Fin 96) : ridx_main_v53 (ix2 r q) k = ix2 k q :=
  funext fun a => Fin.ext (by match a with | ⟨0, _⟩ => rfl | ⟨1, _⟩ => rfl)
theorem lrow54 (r : Fin 50000) (q k : Fin 96) : lidx_main_v54 (ix2 r q) k = ix2 r k :=
  funext fun a => Fin.ext (by match a with | ⟨0, _⟩ => rfl | ⟨1, _⟩ => rfl)
theorem rcol54 (r : Fin 50000) (q k : Fin 96) : ridx_main_v54 (ix2 r q) k = ix2 k q :=
  funext fun a => Fin.ext (by match a with | ⟨0, _⟩ => rfl | ⟨1, _⟩ => rfl)
theorem count_at2 (r : Fin 50000) (k : Fin 96) : idx_main_v50 (idx_main_v51 (ix2 r k)) = ix1 r :=
  funext fun a => Fin.ext (by match a with | ⟨0, _⟩ => rfl)
theorem bias_at2 (r : Fin 50000) (q : Fin 96) : idx_main_v56 (idx_main_v57 (ix2 r q)) = ix1 q :=
  funext fun a => Fin.ext (by match a with | ⟨0, _⟩ => rfl)

/-- THE SECOND LAYER of the reference, over the first layer's result. -/
theorem layer2 (x0 : (⟨S50000x96, .f32⟩ : BufTy).Contents (Elt Ideal)) (x1 : (⟨S2x800000, .i32⟩ : BufTy).Contents (Elt Ideal))
    (x2 x3 : (⟨S96x96, .f32⟩ : BufTy).Contents (Elt Ideal)) (x4 : (⟨S96, .f32⟩ : BufTy).Contents (Elt Ideal))
    (x5 x6 : (⟨S96x96, .f32⟩ : BufTy).Contents (Elt Ideal)) (x7 : (⟨S96, .f32⟩ : BufTy).Contents (Elt Ideal)) :
    val_main_v59 (F := Ideal) x0 x1 x2 x3 x4 x5 x6 x7
      = sageLayer (val_main_v13 (F := Ideal) (val_main_v29 (F := Ideal) x0 x1 x2 x3 x4) x1) (val_main_v17 (F := Ideal) x1)
          (val_main_v29 (F := Ideal) x0 x1 x2 x3 x4) x5 x6 x7 := by
  funext i
  obtain ⟨r, q, rfl⟩ : ∃ (r : Fin 50000) (q : Fin 96), i = ix2 r q := ⟨i 0, i 1, eq_ix2 i⟩
  rw [sageLayer_apply, val_main_v59_apply, val_main_v58_apply, val_main_v55_apply, val_main_v53_apply, val_main_v54_apply,
    val_main_v57_apply, val_main_v56_apply, val_main_call1_v0_apply, val_main_call1_cst_apply, bias_at2]
  unfold sageEntry
  refine congrArg₂ max (congrArg₂ (· + ·) (congrArg₂ (· + ·) (Finset.sum_congr rfl fun k _ => ?_)
    (Finset.sum_congr rfl fun k _ => ?_)) rfl) Ideal.ofBits_zero_f32
  · rw [lrow53, rcol53, val_main_v52_apply, val_main_v51_apply, val_main_v50_apply, val_main_v49_apply, val_main_v48_apply,
      val_main_cst_9_apply, count_at2, sums2, counts2]
    rfl
  · exact congrArg₂ (· * ·) (congrArg (val_main_v29 (F := Ideal) x0 x1 x2 x3 x4) (lrow54 r q k)) (congrArg x6 (rcol54 r q k))

end Cert.ReferenceIdeal.Layers

end
-- ==== Proof.lean ====
/-
  Two stacked layers of neighbour averaging with a dense map (50000 nodes, 96 features, 800000 directed edges): a program
  whose dense part runs as two kernel regions of ten row blocks each, against a reference written with whole-array
  operations. On the extended reals the two compute one function of the arguments.

  A layer takes, per node, the sum of its in-neighbours' feature rows, divides by the number of in-neighbours clamped from
  below by one, multiplies by a weight matrix, adds the node's own features times a second weight matrix, adds a bias and
  clamps from below by zero. The sums and the counts come out of a gather along the edges' sources and additions at the
  edges' targets — operations both programs apply in the same way to the same operands, so they are carried as functions of
  the features and the edge list and never opened. The programs differ in three ways, none of which changes a value here:
    · the kernel forms the reciprocal `1 / max (deg, 1)` once and MULTIPLIES the sums by it, where the reference DIVIDES
      by `max (deg, 1)`: the clamped count is at least one, so not zero, and a product with the reciprocal of a non-zero
      extended real is the quotient by it (`Cert.MeanLaw`) — no finiteness is used, so the precondition is never opened;
    · the kernel narrows the operands of its matrix products to a shorter float format and works block by block: a change
      of format is the identity on the extended reals, a product into a zero accumulator is the plain sum over the contracted
      axis, and the ten row blocks tile the 50000 rows (`Cert.KernelIdeal.DenseBody`, `Cert.KernelIdeal.Region`);
    · the kernel counts the neighbours once for both layers, the reference once per layer: the same function of the edge
      list (`Cert.ReferenceIdeal.Layers.counts2`).
  So both result arrays are `Cert.Sage.sageLayer` applied twice (`Cert.KernelIdeal.Result.second`,
  `Cert.ReferenceIdeal.Layers.layer2`). The three frame claims are the generated frames (the reference's is its generated
  run with the result dropped); the idealization rewrote nothing, so `preserves` is `True`.
-/
import proofs.«162244_j89412629168562_2_alg».proof.Defs
import proofs.«162244_j89412629168562_2_alg».proof.Proof.Gen.Kernel
import proofs.«162244_j89412629168562_2_alg».proof.Proof.Gen.Kernel.Skeleton
import proofs.«162244_j89412629168562_2_alg».proof.Proof.Gen.Kernel.Launch
import proofs.«162244_j89412629168562_2_alg».proof.Proof.Gen.Kernel.Points
import proofs.«162244_j89412629168562_2_alg».proof.Proof.Gen.Kernel.Frame
import proofs.«162244_j89412629168562_2_alg».proof.Proof.Gen.KernelIdeal
import proofs.«162244_j89412629168562_2_alg».proof.Proof.Gen.KernelIdeal.Skeleton
import proofs.«162244_j89412629168562_2_alg».proof.Proof.Gen.KernelIdeal.Launch
import proofs.«162244_j89412629168562_2_alg».proof.Proof.Gen.KernelIdeal.Points
import proofs.«162244_j89412629168562_2_alg».proof.Proof.Gen.KernelIdeal.Frame
import proofs.«162244_j89412629168562_2_alg».proof.Proof.Gen.ReferenceIdeal
import proofs.«162244_j89412629168562_2_alg».proof.Proof.Gen.Pre_finite_inputs
import proofs.«162244_j89412629168562_2_alg».proof.Proof.Gen.ReferenceIdeal.Run
import proofs.«162244_j89412629168562_2_alg».proof.Proof.Gen.ReferenceIdeal.Read
import proofs.«162244_j89412629168562_2_alg».proof.Proof.NamedRun
import proofs.«162244_j89412629168562_2_alg».proof.Proof.Result
import proofs.«162244_j89412629168562_2_alg».proof.Proof.RefLayers
import Idealize.ShloMosaic.Adequacy
import Idealize.ShloMosaic.Init

noncomputable section

namespace Cert.Proof

open Idealize.ShloMosaic Idealize.SL.Sem

/-- The program as printed runs and keeps its arguments: the generated frame. -/
theorem frame_k : Cert.frame_Kernel := fun m ρ _ => Cert.Kernel.Gen.frame m ρ

/-- So does the program read on the extended reals. -/
theorem frame_ki : Cert.frame_KernelIdeal := fun m ρ _ => Cert.KernelIdeal.Gen.frame m ρ

/-- The reference is host operations only: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the eight arguments both programs end with the second layer of `Cert.Sage.sageLayer`
    in their result arrays: the kernel by its named run and the value of the last boundary's contents, the reference by its
    generated run read one operation at a time. -/
theorem algebraic : Cert.algebraic_KernelIdeal_ReferenceIdeal := by
  intro m ρ m' ρ' _ hagree
  refine ⟨fun c => Cert.KernelIdeal.Result.layer2 m c, ?_, ?_⟩
  · exact (θ_run Cert.KernelIdeal.defs _ _).mono
      (fun r h c => ⟨(h c).1.trans (Cert.KernelIdeal.Result.second m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, Cert.ReferenceIdeal.Layers.layer2, Cert.ReferenceIdeal.Layers.layer1,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
